-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S131072x128 : Shape := ⟨2, ![131072, 128]⟩
abbrev S2x8x128 : Shape := ⟨3, ![2, 8, 128]⟩
abbrev S8192x128 : Shape := ⟨2, ![8192, 128]⟩
abbrev S1x8x128 : Shape := ⟨3, ![1, 8, 128]⟩
abbrev S8x128 : Shape := ⟨2, ![8, 128]⟩
abbrev S1024x8x128 : Shape := ⟨3, ![1024, 8, 128]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S131072x128, .f32⟩
  | .hbm, ⟨3, _⟩ => ⟨S131072x128, .f32⟩
  | .hbm, ⟨4, _⟩ => ⟨S2x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1024x8x128 : S8192x128.ShapeCasts S1024x8x128
  reduces_S1024x8x128_S8x128 : S1024x8x128.Reduces [0] S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  reducesTo_S16777216_S_d0 : S16777216.ReducesTo [0] S_
  h_S_ : 0 < S_.numel

variable [Facts₀]

class Facts : Prop extends Facts₀ where

variable [Facts]
-- ==== Proof.Pieces.lean ====
/-
  What each of the body's three control cases leaves behind, as values.

  The grid is 2 × 8: for each of the two rows p of the grid, eight consecutive steps walk eight [8192, 128] blocks of
  the two inputs. The body keeps an [8, 128] accumulator in scratch memory: the first step of a row zeroes it, every
  step adds to it the block's 1024 stacked [8, 128] tiles of cos(φ · w), and the last step of the row copies it to the
  row's [1, 8, 128] output block. Here the memory the three cases leave is read back — one covering store each, whose
  loads read the whole buffers — and then restated point by point along the grid.
-/
import proofs.«164791_j26688926777599_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step of a row of the grid: the scratch, holding `xs0`, ends at the step's one store — `xs0` plus the block's partial sums. -/
theorem scratch_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i)
    (x0 : Vec F S8192x128 .f32) (x1 : Vec F S8192x128 .f32) (xs0 : Vec F S8x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S8192x128) hz2, View.ld_unit_zero (S := S8x128) hz2]

/-- The first step of a row of the grid: the scratch is zeroed, read back, and ends at zero plus the block's partial sums. -/
theorem scratch_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i)
    (x0 : Vec F S8192x128 .f32) (x1 : Vec F S8192x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg5.read_unread, View.ld_unit_zero (S := S8192x128) hz2, View.ld_unit_zero (S := S8x128) hz2]

/-- The last step of a row of the grid leaves in the scratch what a middle step does. -/
theorem scratch_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S8192x128 .f32) (x1 : Vec F S8192x128 .f32) (xs0 : Vec F S8x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S8x128) hz2]
  simp only [View.readAt_eq_ld, harg2.read_unread, harg3.read_unread, harg5.read_unread, View.ld_unit_zero (S := S8192x128) hz2, View.ld_unit_zero (S := S8x128) hz2]

/-- and copies the scratch it has just stored into the output block. -/
theorem out_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S8192x128 .f32) (x1 : Vec F S8192x128 .f32) (xs0 : Vec F S8x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x8x128) hz3, View.readCov_unit_zero (S := S8x128) _ hz2]
  simp only [View.readAt_eq_ld, harg2.read_unread, harg3.read_unread, harg5.read_unread, View.ld_unit_zero (S := S8192x128) hz2, View.ld_unit_zero (S := S8x128) hz2]

/-! ## The accumulator and the output block, point by point -/

variable (m : (ℓ : Loc nD τ sig) → Buf (Elt F) ℓ)

/-- After the first step of a grid row the accumulator holds that step's store over the zero block. -/
theorem scratch_first (c : Dev nD) (t : Fin cfg0.N) (h0 : t.val % 8 = 0) (h1 : ¬t.val % 8 = 7) :
    (outsAt0 m c t.val t.isLt).2 = k0_pay2 (iblk m c 0 t) (iblk m c 1 t) (k0_pay1 (F := F)) := by
  rw [outsAt0_A m c t h0 h1]
  exact scratch_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After every later step it holds that step's store over what the step before left. -/
theorem scratch_next (c : Dev nD) (t : Fin cfg0.N) (h0 : ¬t.val % 8 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 8 = 7
  · rw [outsAt0_C m c t h0 h1]
    exact scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    exact scratch_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At the last step of a grid row the output block is a copy of the accumulator that step leaves. -/
theorem out_last (c : Dev nD) (t : Fin cfg0.N) (h0 : ¬t.val % 8 = 0) (h1 : t.val % 8 = 7) :
    (outsAt0 m c t.val t.isLt).1 = k0_pay3 (outsAt0 m c t.val t.isLt).2 := by
  rw [outsAt0_C m c t h0 h1]
  dsimp only
  rw [scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2]
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2

end Cert.KernelIdeal.Pieces
end
-- ==== Proof.Payload.lean ====
/-
  The body's arithmetic on the extended reals, read at a position of the [8, 128] accumulator.

  One step adds to the accumulator, at sublane r and lane l, the sum over the block's 1024 stacked [8, 128] tiles k of
  cos(x0 · x1) at row 8k + r, lane l of the [8192, 128] input blocks: reshaping [8192, 128] to [1024, 8, 128] keeps the
  row-major position, so tile k's sublane r is row 8k + r.
-/
import proofs.«164791_j26688926777599_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- Row `8k + r` of an [8192, 128] block: sublane `r` of its `k`-th [8, 128] tile. -/
def tileRow (k : Fin 1024) (r : Fin 8) : Fin 8192 := ⟨k.val * 8 + r.val, by have := k.isLt; have := r.isLt; omega⟩

/-- The sum over the 1024 stacked tiles, read at a position of the tile. -/
theorem tileSum_apply (v : FVec Ideal S1024x8x128 .f32) (hφ : FKind.Formats .f32) (hacc : (0x00000000#32 : BitVec 32) = 0x00000000#32)
    (r : Fin 8) (l : Fin 128) :
    multiReduction .add [0] S8x128 v 0x00000000#32 reduces_S1024x8x128_S8x128 hφ hacc (ix2 r l) = ∑ k : Fin 1024, v (ix3 k r l) := by
  refine (Ideal.multiReduction_add_single v 0x00000000#32 reduces_S1024x8x128_S8x128 hφ hacc (ix2 r l)).trans ?_
  refine Finset.sum_congr rfl fun k _ => congrArg v ?_
  funext a
  match a with
  | ⟨0, _⟩ => rfl
  | ⟨1, _⟩ => rfl
  | ⟨2, _⟩ => rfl

/-- One step's store: the accumulator plus the block's tile sums of cos(x0 · x1). -/
theorem pay2_apply (x0 x1 : Vec Ideal S8192x128 .f32) (xs : Vec Ideal S8x128 .f32) (r : Fin 8) (l : Fin 128) :
    k0_pay2 (F := Ideal) x0 x1 xs (ix2 r l)
      = xs (ix2 r l) + ∑ k : Fin 1024, Ideal.cos (x0 (ix2 (tileRow k r) l) * x1 (ix2 (tileRow k r) l)) := by
  unfold k0_pay2
  simp only [shapeCast_self]
  refine congrArg (xs (ix2 r l) + ·) ((tileSum_apply _ _ _ r l).trans (Finset.sum_congr rfl fun k _ => ?_))
  refine (shapeCast_apply _ shapeCasts_S8192x128_S1024x8x128 (ix3 k r l) (ix2 (tileRow k r) l) ?_).trans ?_
  · rw [Shape.rowMajor_val_two, Shape.rowMajor_val_three]
    rfl
  · rfl

/-- The reset stores the real number 0 everywhere. -/
theorem pay1_apply (r : Fin 8) (l : Fin 128) : k0_pay1 (F := Ideal) (ix2 r l) = 0 := by
  unfold k0_pay1
  simp only [shapeCast_self]
  exact Ideal.ofBits_zero_f32

/-- The copy to the output block adds a leading unit axis: position (0, r, l) holds the accumulator's (r, l). -/
theorem pay3_apply (v : Vec Ideal S8x128 .f32) (r : Fin 8) (l : Fin 128) :
    k0_pay3 (F := Ideal) v (ix3 (0 : Fin 1) r l) = v (ix2 r l) := by
  unfold k0_pay3
  refine shapeCast_apply _ shapeCasts_S8x128_S1x8x128 (ix3 (0 : Fin 1) r l) (ix2 r l) ?_
  rw [Shape.rowMajor_val_two, Shape.rowMajor_val_three]
  show r.val * 128 + l.val = (0 * 8 + r.val) * 128 + l.val
  omega

end Cert.KernelIdeal.Payload
end
-- ==== Proof.Blocks.lean ====
/-
  The input blocks read at a position: row a, lane l of the [8192, 128] block the grid's point t fetches is row
  t · 8192 + a of the [131072, 128] array, which the host reshaped from the flat argument — flat position
  (t · 8192 + a) · 128 + l.
-/
import proofs.«164791_j26688926777599_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- Both inputs' index maps send the grid's point t = 8p + i to block row p · 8 + i = t, block column 0. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- The region finds the first input as the host's reshape of the first argument, -/
theorem V_v0 (c : Dev nD) : (V m c main_v0 : S131072x128.Idx → Elt F .f32)
    = shapeCast S131072x128 (m ((c : Thread nD τ).loc main_arg0)) shapeCasts_S16777216_S131072x128 := by
  show StableHlo.after hostOps0 (fun b => m (c, b)) (Proc.devRef .tc main_v0) = _
  after_results
  rfl
/-- and the second as the reshape of the second. -/
theorem V_v1 (c : Dev nD) : (V m c main_v1 : S131072x128.Idx → Elt F .f32)
    = shapeCast S131072x128 (m ((c : Thread nD τ).loc main_arg1)) shapeCasts_S16777216_S131072x128 := by
  show StableHlo.after hostOps0 (fun b => m (c, b)) (Proc.devRef .tc main_v1) = _
  after_results
  rfl

/-- Row R, lane l of the reshaped array is flat position R · 128 + l. -/
theorem reshape_apply (x : S16777216.Idx → Elt F .f32) (R : Fin 131072) (l : Fin 128) (j : Fin 16777216)
    (hj : j.val = R.val * 128 + l.val) :
    shapeCast S131072x128 x shapeCasts_S16777216_S131072x128 (ix2 R l) = x (ix1 j) := by
  refine shapeCast_apply x shapeCasts_S16777216_S131072x128 (ix2 R l) (ix1 j) ?_
  rw [Shape.rowMajor_val_one, Shape.rowMajor_val_two]
  exact hj

/-- The first input's block at point t, at row a and lane l, is the first argument at (t · 8192 + a) · 128 + l. -/
theorem iblk0_flat (c : Dev nD) (t : Fin cfg0.N) (a : Fin 8192) (l : Fin 128) (j : Fin 16777216)
    (hj : j.val = (t.val * 8192 + a.val) * 128 + l.val) :
    (iblk m c 0 t : Vec F S8192x128 .f32) (ix2 a l) = m ((c : Thread nD τ).loc main_arg0) (ix1 j) := by
  have hR : t.val * 8192 + a.val < 131072 := by have := j.isLt; have := l.isLt; omega
  unfold iblk
  rw [View.read_apply]
  show V m c main_v0 _ = _
  rw [V_v0, ← reshape_apply (m ((c : Thread nD τ).loc main_arg0)) ⟨t.val * 8192 + a.val, hR⟩ l j hj]
  congr 1
  funext d
  apply Fin.ext
  match d with
  | ⟨0, _⟩ => show win0_0.index t 0 * 8192 + 1 * a.val = t.val * 8192 + a.val; rw [(index0 t).1]; omega
  | ⟨1, _⟩ => show win0_0.index t 1 * 128 + 1 * l.val = l.val; rw [(index0 t).2]; omega

/-- The second input's block likewise. -/
theorem iblk1_flat (c : Dev nD) (t : Fin cfg0.N) (a : Fin 8192) (l : Fin 128) (j : Fin 16777216)
    (hj : j.val = (t.val * 8192 + a.val) * 128 + l.val) :
    (iblk m c 1 t : Vec F S8192x128 .f32) (ix2 a l) = m ((c : Thread nD τ).loc main_arg1) (ix1 j) := by
  have hR : t.val * 8192 + a.val < 131072 := by have := j.isLt; have := l.isLt; omega
  unfold iblk
  rw [View.read_apply]
  show V m c main_v1 _ = _
  rw [V_v1, ← reshape_apply (m ((c : Thread nD τ).loc main_arg1)) ⟨t.val * 8192 + a.val, hR⟩ l j hj]
  congr 1
  funext d
  apply Fin.ext
  match d with
  | ⟨0, _⟩ => show win0_1.index t 0 * 8192 + 1 * a.val = t.val * 8192 + a.val; rw [(index1 t).1]; omega
  | ⟨1, _⟩ => show win0_1.index t 1 * 128 + 1 * l.val = l.val; rw [(index1 t).2]; omega

end Cert.KernelIdeal.Blocks
end
-- ==== Proof.LibBlockSum.lean ====
/-
  A sum over `a · b` consecutive rows, taken block by block.

  A kernel that walks an array of `a · b` rows in `a` blocks of `b` rows and accumulates one partial sum per block
  computes `Σ_p Σ_q f (p · b + q)`; a reference that reduces the whole axis at once computes `Σ_r f r`.
  In any commutative additive monoid (the extended reals included: their addition is commutative and associative
  at the infinities too) the two are equal, and so is the three-level form `a · b · c` rows walked as
  `a` groups of `b` blocks of `c` rows.
-/
import Mathlib.Algebra.BigOperators.Fin
import Mathlib.Logic.Equiv.Fin.Basic

namespace LibBlockSum

variable {M : Type} [AddCommMonoid M]

/-- Rows `0 … a·b − 1` summed at once are the `a` blocks of `b` rows summed one after the other. -/
theorem sum_blocks (a b : ℕ) (f : ℕ → M) :
    ∑ r : Fin (a * b), f r.val = ∑ p : Fin a, ∑ q : Fin b, f (p.val * b + q.val) := by
  rw [← Fintype.sum_prod_type' (f := fun (p : Fin a) (q : Fin b) => f (p.val * b + q.val))]
  refine (Fintype.sum_equiv finProdFinEquiv _ _ fun x => ?_).symm
  rw [finProdFinEquiv_apply_val, Nat.mul_comm b, Nat.add_comm]

/-- Three levels: `a` groups of `b` blocks of `c` rows. -/
theorem sum_blocks₃ (a b c : ℕ) (f : ℕ → M) :
    ∑ r : Fin (a * b * c), f r.val
      = ∑ p : Fin a, ∑ q : Fin b, ∑ s : Fin c, f ((p.val * b + q.val) * c + s.val) := by
  rw [sum_blocks (a * b) c f, sum_blocks a b fun k => ∑ s : Fin c, f (k * c + s.val)]

end LibBlockSum
-- ==== Proof.CosSum.lean ====
/-
  The mathematics of the kernel: one sum of 2²⁴ cosines, taken in two orders.

  The reference adds cos(w_j · φ_j) over all j < 2²⁴ at once. The kernel views the flat arrays as [131072, 128]
  (position j = R · 128 + l), walks the 131072 rows in 16 blocks of 8192 rows (block t = 8p + i: row p of a 2 × 8 grid,
  step i), and inside a block adds, for every sublane r < 8 and lane l < 128, the 1024 rows R = (t · 1024 + k) · 8 + r.
  Each grid row p so leaves an [8, 128] tile of partial sums, and the host adds the 2 · 8 · 128 partial sums.
  Every j < 2²⁴ is (((p · 8 + i) · 1024 + k) · 8 + r) · 128 + l for exactly one (p, i, k, r, l), and addition on the
  extended reals is commutative and associative (at the infinities too), so the two totals are equal; no finiteness
  of the inputs is needed.
-/
import proofs.«164791_j26688926777599_2_alg».proof.Proof.LibBlockSum
import Idealize.ShloMosaic.PureOps.Ideal
import Idealize.ShloMosaic.Lib.ValueIdx

noncomputable section

open Idealize.ShloMosaic Idealize.ShloMosaic.ValueIdx

namespace Cert.CosSum

/-- The flat position of grid row `p`, step `i`, tile `k`, sublane `r`, lane `l`. -/
def pos (p i k r l : ℕ) : ℕ := (((p * 8 + i) * 1024 + k) * 8 + r) * 128 + l

/-- The summand at flat position `j`: cos(φ_j · w_j) (and 0 past the end, which is never used). -/
def term (phi w : (⟨1, ![16777216]⟩ : Shape).Idx → EReal) (j : ℕ) : EReal :=
  if h : j < 16777216 then Ideal.cos (phi (ix1 ⟨j, h⟩) * w (ix1 ⟨j, h⟩)) else 0

/-- Grid row `p`'s accumulator at sublane `r`, lane `l` after its first `n` steps. -/
def acc (f : ℕ → EReal) (p n r l : ℕ) : EReal := ∑ i ∈ Finset.range n, ∑ k : Fin 1024, f (pos p i k.val r l)

theorem acc_zero (f : ℕ → EReal) (p r l : ℕ) : acc f p 0 r l = 0 := Finset.sum_range_zero _

theorem acc_succ (f : ℕ → EReal) (p n r l : ℕ) :
    acc f p (n + 1) r l = acc f p n r l + ∑ k : Fin 1024, f (pos p n k.val r l) := Finset.sum_range_succ _ n

/-- The 2 · 8 · 128 partial sums the kernel leaves add up to the sum over all 2²⁴ positions. -/
theorem sum_acc (f : ℕ → EReal) :
    ∑ p : Fin 2, ∑ r : Fin 8, ∑ l : Fin 128, acc f p.val 8 r.val l.val = ∑ j : Fin 16777216, f j.val := by
  have e1 : ∑ j : Fin 16777216, f j.val = ∑ R : Fin 131072, ∑ l : Fin 128, f (R.val * 128 + l.val) :=
    LibBlockSum.sum_blocks 131072 128 f
  have e2 : ∑ R : Fin 131072, ∑ l : Fin 128, f (R.val * 128 + l.val)
      = ∑ T : Fin 16384, ∑ r : Fin 8, ∑ l : Fin 128, f ((T.val * 8 + r.val) * 128 + l.val) :=
    LibBlockSum.sum_blocks 16384 8 fun R => ∑ l : Fin 128, f (R * 128 + l.val)
  have e3 : ∑ T : Fin 16384, ∑ r : Fin 8, ∑ l : Fin 128, f ((T.val * 8 + r.val) * 128 + l.val)
      = ∑ p : Fin 2, ∑ i : Fin 8, ∑ k : Fin 1024, ∑ r : Fin 8, ∑ l : Fin 128, f (pos p.val i.val k.val r.val l.val) :=
    LibBlockSum.sum_blocks₃ 2 8 1024 fun T => ∑ r : Fin 8, ∑ l : Fin 128, f ((T * 8 + r.val) * 128 + l.val)
  rw [e1, e2, e3]
  refine Finset.sum_congr rfl fun p _ => ?_
  unfold acc
  simp only [Finset.sum_range]
  -- ∑ r, ∑ l, ∑ i, ∑ k  =  ∑ i, ∑ k, ∑ r, ∑ l
  calc ∑ r : Fin 8, ∑ l : Fin 128, ∑ i : Fin 8, ∑ k : Fin 1024, f (pos p.val i.val k.val r.val l.val)
      = ∑ r : Fin 8, ∑ i : Fin 8, ∑ l : Fin 128, ∑ k : Fin 1024, f (pos p.val i.val k.val r.val l.val) :=
        Finset.sum_congr rfl fun r _ => Finset.sum_comm
    _ = ∑ i : Fin 8, ∑ r : Fin 8, ∑ l : Fin 128, ∑ k : Fin 1024, f (pos p.val i.val k.val r.val l.val) := Finset.sum_comm
    _ = ∑ i : Fin 8, ∑ r : Fin 8, ∑ k : Fin 1024, ∑ l : Fin 128, f (pos p.val i.val k.val r.val l.val) :=
        Finset.sum_congr rfl fun i _ => Finset.sum_congr rfl fun r _ => Finset.sum_comm
    _ = ∑ i : Fin 8, ∑ k : Fin 1024, ∑ r : Fin 8, ∑ l : Fin 128, f (pos p.val i.val k.val r.val l.val) :=
        Finset.sum_congr rfl fun i _ => Finset.sum_comm

/-- The result both programs compute: the sum of all 2²⁴ summands added to the host's zero, plus another zero, divided
    by 2²⁴ (the two zeros and the divisor kept as the words the programs print). -/
def mean (phi w : (⟨1, ![16777216]⟩ : Shape).Idx → EReal) : (⟨0, ![]⟩ : Shape).Idx → EReal := fun _ =>
  Ideal.div (Ideal.ofBits .f32 0x00000000#32 + ∑ j : Fin 16777216, term phi w j.val + Ideal.ofBits .f32 0x00000000#32)
    (Ideal.ofBits .f32 0x4B800000#32)

/-- Inside the array the summand is cos(φ_j · w_j). -/
theorem term_fin (phi w : (⟨1, ![16777216]⟩ : Shape).Idx → EReal) (j : Fin 16777216) :
    term phi w j.val = Ideal.cos (phi (ix1 j) * w (ix1 j)) := dif_pos j.isLt

end Cert.CosSum
end
-- ==== Proof.Accum.lean ====
/-
  The accumulation along a row of the grid, on the extended reals.

  With f j = cos(φ_j · w_j) at flat position j: the step at point t = 8p + i adds to the accumulator, at (r, l), the
  1024 values f at positions (((p · 8 + i) · 1024 + k) · 8 + r) · 128 + l. The first step starts from 0 (0 + x = x), so
  after step q of grid row p the accumulator holds the sum over steps 0 … q — by induction on q —, and the last step
  copies the sum over all eight steps to the output block.
-/
import proofs.«164791_j26688926777599_2_alg».proof.Proof.Pieces
import proofs.«164791_j26688926777599_2_alg».proof.Proof.Payload
import proofs.«164791_j26688926777599_2_alg».proof.Proof.Blocks
import proofs.«164791_j26688926777599_2_alg».proof.Proof.CosSum

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Payload Cert.KernelIdeal.Blocks Cert.CosSum

variable (m : (ℓ : Loc nD τ sig) → Buf (Elt Ideal) ℓ)

/-- The summand cos(φ_j · w_j) of the two argument arrays on core `c`. -/
def f (c : Dev nD) : ℕ → EReal :=
  term (m ((c : Thread nD τ).loc main_arg0)) (m ((c : Thread nD τ).loc main_arg1))

/-- One step at point t = p · 8 + i: the accumulator plus the 1024 summands of the step at (r, l). -/
theorem step_apply (c : Dev nD) (t : Fin cfg0.N) (p i : ℕ) (ht : t.val = p * 8 + i) (xs : Vec Ideal S8x128 .f32)
    (r : Fin 8) (l : Fin 128) :
    k0_pay2 (F := Ideal) (iblk m c 0 t) (iblk m c 1 t) xs (ix2 r l)
      = xs (ix2 r l) + ∑ k : Fin 1024, f m c (pos p i k.val r.val l.val) := by
  have hN : t.val < 16 := lt_of_lt_of_eq t.isLt (show cfg0.N = 16 from N_0)
  refine (pay2_apply (iblk m c 0 t) (iblk m c 1 t) xs r l).trans ?_
  refine congrArg (xs (ix2 r l) + ·) (Finset.sum_congr rfl fun k _ => ?_)
  have hb : pos p i k.val r.val l.val < 16777216 := by
    unfold pos; have := k.isLt; have := r.isLt; have := l.isLt; omega
  have hj : (⟨pos p i k.val r.val l.val, hb⟩ : Fin 16777216).val = (t.val * 8192 + (tileRow k r).val) * 128 + l.val := by
    show pos p i k.val r.val l.val = (t.val * 8192 + (k.val * 8 + r.val)) * 128 + l.val
    unfold pos; omega
  rw [iblk0_flat m c t (tileRow k r) l ⟨pos p i k.val r.val l.val, hb⟩ hj,
    iblk1_flat m c t (tileRow k r) l ⟨pos p i k.val r.val l.val, hb⟩ hj]
  unfold f term
  rw [dif_pos hb]

/-- After step `q` of grid row `p` the accumulator holds the sum over steps 0 … q. -/
theorem scratch_eq (c : Dev nD) (p : ℕ) : ∀ (q : ℕ) (hq : q < 8) (h : p * 8 + q < cfg0.N) (r : Fin 8) (l : Fin 128),
    (outsAt0 m c (p * 8 + q) h).2 (ix2 r l) = acc (f m c) p (q + 1) r.val l.val
  | 0, _, h, r, l => by
    have h0 : (⟨p * 8 + 0, h⟩ : Fin cfg0.N).val % 8 = 0 := by dsimp only; omega
    have h1 : ¬(⟨p * 8 + 0, h⟩ : Fin cfg0.N).val % 8 = 7 := by dsimp only; omega
    rw [show (outsAt0 m c (p * 8 + 0) h).2 = _ from scratch_first m c ⟨p * 8 + 0, h⟩ h0 h1,
      step_apply m c ⟨p * 8 + 0, h⟩ p 0 rfl _ r l, pay1_apply, acc_succ, acc_zero]
  | q + 1, hq, h, r, l => by
    have h0 : ¬(⟨p * 8 + (q + 1), h⟩ : Fin cfg0.N).val % 8 = 0 := by dsimp only; omega
    rw [show (outsAt0 m c (p * 8 + (q + 1)) h).2 = _ from scratch_next m c ⟨p * 8 + (q + 1), h⟩ h0,
      step_apply m c ⟨p * 8 + (q + 1), h⟩ p (q + 1) rfl _ r l, acc_succ]
    exact congrArg (· + _) (scratch_eq c p q (Nat.lt_of_succ_lt hq) (Nat.lt_of_succ_lt h) r l)

/-- At the last step of grid row `p` the output block holds, at (0, r, l), the sum over the row's eight steps. -/
theorem out_eq (c : Dev nD) (p : ℕ) (h : p * 8 + 7 < cfg0.N) (r : Fin 8) (l : Fin 128) :
    (outsAt0 m c (p * 8 + 7) h).1 (ix3 (0 : Fin 1) r l) = acc (f m c) p 8 r.val l.val := by
  have h0 : ¬(⟨p * 8 + 7, h⟩ : Fin cfg0.N).val % 8 = 0 := by dsimp only; omega
  have h1 : (⟨p * 8 + 7, h⟩ : Fin cfg0.N).val % 8 = 7 := by dsimp only; omega
  rw [show (outsAt0 m c (p * 8 + 7) h).1 = _ from out_last m c ⟨p * 8 + 7, h⟩ h0 h1, pay3_apply]
  exact scratch_eq m c p 7 (by omega) h r l

end Cert.KernelIdeal.Accum
end
-- ==== Proof.LibIdxSum.lean ====
/-
  A sum over the index set of a rank-1 or rank-3 array is the iterated sum over its coordinates.

  An index of a shape is a function from the axes to the coordinates; for literal extents it is the tuple of its
  coordinates, so summing over all indices is summing over the coordinates one axis after the other (outermost axis
  first). The rank-2 case is the library's `sum_idx2`; these are the rank-1 and rank-3 cases, in any commutative
  additive monoid.
-/
import Idealize.ShloMosaic.Lib.ValueIdx

open Idealize.ShloMosaic Idealize.ShloMosaic.ValueIdx

namespace LibIdxSum

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates, outermost axis first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end LibIdxSum
-- ==== Proof.Result.lean ====
/-
  The kernel's result, read off its run.

  Only the last step of each grid row p writes the output back, and its block is row p of the [2, 8, 128] array: the
  array ends holding, at (p, r, l), the sum over grid row p's eight steps at (r, l). The host then adds the 2 · 8 · 128
  entries to the zero it starts from, adds another zero, and divides by 2²⁴.
-/
import proofs.«164791_j26688926777599_2_alg».proof.Proof.Accum
import proofs.«164791_j26688926777599_2_alg».proof.Proof.LibIdxSum
import Idealize.ShloMosaic.PureOps.Ideal.Laws
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum Cert.CosSum

variable (m : (ℓ : Loc nD τ sig) → Buf (Elt Ideal) ℓ) (ρ : Dev nD → PrngReg)

/-- The array of partial sums: at (p, r, l) the sum over grid row p's eight steps at sublane r, lane l. -/
def partials (c : Dev nD) : Buf (Elt Ideal) ((c : Thread nD τ).loc main_v2) :=
  fun y => acc (f m c) (y 0).val 8 (y 1).val (y 2).val

/-- The output's index map sends the grid's point t = 8p + i to block (p, 0, 0). -/
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- The output block the last step of grid row p leaves, at any position of the block. -/
theorem out_at (c : Dev nD) (p : ℕ) (h : p * 8 + 7 < cfg0.N) (y : S1x8x128.Idx) :
    (outsAt0 m c (p * 8 + 7) h).1 y = acc (f m c) p 8 (y 1).val (y 2).val := by
  have e0 : y 0 = (0 : Fin 1) := Fin.ext (show (y 0).val = 0 by have : (y 0).val < 1 := (y 0).isLt; omega)
  have e : y = ix3 (0 : Fin 1) (y 1) (y 2) := by
    funext a
    match a with
    | ⟨0, _⟩ => exact e0
    | ⟨1, _⟩ => rfl
    | ⟨2, _⟩ => rfl
  rw [e]
  exact out_eq m c p h (y 1) (y 2)

/-- What a writing point writes back is its block of the array of partial sums. -/
theorem flushed_eq (c : Dev nD) (t : Fin cfg0.N) (hf : (cfg0.win 2).flush t = true) :
    (dats m 0 c).flushed 2 t = ((cfg0.win 2).blk t).view.read (Elt Ideal) (partials m c) := by
  have h7 : t.val % 8 = 7 := (flush0_2 t).mp hf
  obtain ⟨n, hn⟩ := t
  obtain ⟨p, rfl⟩ : ∃ p, n = p * 8 + 7 := ⟨n / 8, by dsimp only at h7; omega⟩
  obtain ⟨i0, i1, i2⟩ := index2 ⟨p * 8 + 7, hn⟩
  show (cfg0.win 2).cut (grid0.coords _) ((dats m 0 c).after 2 _) = _
  rw [after0_2]
  funext y
  show (outsAt0 m c (p * 8 + 7) hn).1 y = acc (f m c) (win0_2.index ⟨p * 8 + 7, hn⟩ 0 * 1 + 1 * (y 0).val) 8
    (win0_2.index ⟨p * 8 + 7, hn⟩ 1 * 8 + 1 * (y 1).val) (win0_2.index ⟨p * 8 + 7, hn⟩ 2 * 128 + 1 * (y 2).val)
  have y0 : (y 0).val = 0 := by have : (y 0).val < 1 := (y 0).isLt; omega
  rw [i0, i1, i2, y0, out_at m c p hn y]
  dsimp only
  congr 1 <;> omega

/-- Every position (p, r, l) of the array is in the block the last step of grid row p writes. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 16 := N_0
  have hi0 : (i 0).val < 2 := (i 0).isLt
  have hi1 : (i 1).val < 8 := (i 1).isLt
  have hi2 : (i 2).val < 128 := (i 2).isLt
  let t : Fin cfg0.N := ⟨(i 0).val * 8 + 7, by omega⟩
  obtain ⟨i0, i1, i2⟩ := index2 t
  refine ⟨t, (flush0_2 t).mpr (by show ((i 0).val * 8 + 7) % 8 = 7; omega), ?_⟩
  show i ∈ ((View.whole main_v2).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [i0]; show ((i 0).val * 8 + 7) / 8 * 1 ≤ (i 0).val ∧ (i 0).val < ((i 0).val * 8 + 7) / 8 * 1 + 1; omega
  | ⟨1, _⟩ =>
    show win0_2.index t 1 * 8 ≤ (i 1).val ∧ (i 1).val < win0_2.index t 1 * 8 + 8
    rw [i1]; omega
  | ⟨2, _⟩ =>
    show win0_2.index t 2 * 128 ≤ (i 2).val ∧ (i 2).val < win0_2.index t 2 * 128 + 128
    rw [i2]; omega

/-- So the array ends holding the partial sums. -/
theorem final (c : Dev nD) : (dats m 0 c).arrAt 2 cfg0.N = partials m c :=
  (dats m 0 c).arrAt_eq_of_cover 2 (partials m c) (flushed_eq m c) (cover c)

/-- The host's lines after the kernel, as one function of the array of partial sums. -/
def tail (x : (⟨S2x8x128, .f32⟩ : BufTy).Contents (Elt Ideal)) : (⟨S_, .f32⟩ : BufTy).Contents (Elt Ideal) :=
  Host.divf (F := Ideal) (addf (F := Ideal) (Host.reduceAdd (F := Ideal) x (constant (F := Ideal) S_ .f32 0x00000000#32) reducesTo_S2x8x128_S_d0_1_2 h_S_)
    (constant (F := Ideal) S_ .f32 0x00000000#32)) (constant (F := Ideal) S_ .f32 0x4B800000#32)

/-- The program's result is those lines applied to the partial sums. -/
theorem result_eq (c : Dev nD) :
    Pipeline.afterTail₀ cfgs (dats m) 0 (V0 m) [hostOps1] c main_v5 = tail (partials m c) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v2)
      = partials m c from (Pipeline.withArrays_arr spec0 launch0.win.arr_inj c _ _ 2).trans (final m c)]
  rfl

/-- On the extended reals those lines give the common result of the two argument arrays: the 2 · 8 · 128 partial
    sums add up to the sum over all 2²⁴ positions. -/
theorem tail_partials (c : Dev nD) :
    tail (partials m c) = mean (m ((c : Thread nD τ).loc main_arg0)) (m ((c : Thread nD τ).loc main_arg1)) := by
  funext i
  unfold tail mean
  simp only [Host.divf, addf, Host.reduceAdd, constant, Ideal.hostDivf_def, Ideal.addf_def, Ideal.hostReduceAdd_def, Ideal.ofBits_def]
  rw [Ideal.hostReduceAdd_total reducesTo_S2x8x128_S_d0_1_2 (fun b => b.elim0) (partials m c) _ i, LibIdxSum.sum_idx3]
  refine congrArg (fun s => Ideal.div (Ideal.ofBits .f32 0x00000000#32 + s + Ideal.ofBits .f32 0x00000000#32) (Ideal.ofBits .f32 0x4B800000#32)) ?_
  exact sum_acc (f m c)

/-- The run, read: the result at the common value, the two arguments unchanged. -/
theorem run : θ_run defs (onTc (τ := τ) (main (F := Ideal))) ⟨m, fun _ => 0, ρ⟩ fun r => ∀ c : Dev nD,
      r.2.mem ((c.tc : Thread nD τ).loc main_v5) = mean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans ((result_eq m c).trans (tail_partials m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result
end
-- ==== Proof.RefValue.lean ====
/-
  The reference's result: cos(w_j · φ_j) summed over all j < 2²⁴ from the host's zero, plus zero, divided by 2²⁴ —
  the same extended real as the kernel's, since the product commutes.
-/
import proofs.«164791_j26688926777599_2_alg».proof.Proof.Gen.ReferenceIdeal.Read
import proofs.«164791_j26688926777599_2_alg».proof.Proof.CosSum
import proofs.«164791_j26688926777599_2_alg».proof.Proof.LibIdxSum

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.CosSum

/-- The reference's last stage is the common result of the two argument arrays. -/
theorem ref_eq (phi w : (⟨S16777216, .f32⟩ : BufTy).Contents (Elt Ideal)) :
    val_main_v4 (F := Ideal) phi w = mean phi w := by
  funext i
  rw [val_main_v4_apply, val_main_v3_apply, val_main_v2_apply, val_main_cst_apply, val_main_cst_0_apply, val_main_cst_1_apply,
    LibIdxSum.sum_idx1]
  unfold mean
  simp only [Ideal.hostDivf_def, Ideal.addf_def, Ideal.ofBits_def]
  refine congrArg (fun s => Ideal.div (Ideal.ofBits .f32 0x00000000#32 + s + Ideal.ofBits .f32 0x00000000#32) (Ideal.ofBits .f32 0x4B800000#32))
    (Finset.sum_congr rfl fun j _ => ?_)
  rw [term_fin, val_main_v1_apply, val_main_v0_apply, mul_comm]
  rfl

end Cert.ReferenceIdeal.RefValue
end
-- ==== Proof.lean ====
/- The proof of `Cert.Claim`: the kernel sums cos(φ_j · w_j) over all 2²⁴ positions block by block — a 2 × 8 grid, an
   [8, 128] accumulator per grid row, the two rows' partial sums added by the host — and the reference sums
   cos(w_j · φ_j) at once; both then add zero and divide by 2²⁴. On the extended reals the two sums are one: every
   position is met exactly once and addition commutes and associates, at the infinities too (Proof/CosSum.lean), so
   the inputs' finiteness is never used.
   Proof/Pieces.lean reads the three control cases' stores back as values, Proof/Payload.lean the body's arithmetic at
   a position, Proof/Blocks.lean the input blocks at a position of the flat arguments, Proof/Accum.lean the
   accumulation along a grid row (induction on the step), Proof/Result.lean the output array, the host's last lines
   and the kernel's run, Proof/RefValue.lean the reference's value. The three frames are the programs' runs with the
   result dropped; the idealization rewrote nothing. -/
import proofs.«164791_j26688926777599_2_alg».proof.Defs
import proofs.«164791_j26688926777599_2_alg».proof.Proof.Gen.Kernel
import proofs.«164791_j26688926777599_2_alg».proof.Proof.Gen.Kernel.Skeleton
import proofs.«164791_j26688926777599_2_alg».proof.Proof.Gen.Kernel.Launch
import proofs.«164791_j26688926777599_2_alg».proof.Proof.Gen.Kernel.Points
import proofs.«164791_j26688926777599_2_alg».proof.Proof.Gen.Kernel.Frame
import proofs.«164791_j26688926777599_2_alg».proof.Proof.Gen.KernelIdeal
import proofs.«164791_j26688926777599_2_alg».proof.Proof.Gen.KernelIdeal.Skeleton
import proofs.«164791_j26688926777599_2_alg».proof.Proof.Gen.KernelIdeal.Launch
import proofs.«164791_j26688926777599_2_alg».proof.Proof.Gen.KernelIdeal.Points
import proofs.«164791_j26688926777599_2_alg».proof.Proof.Gen.KernelIdeal.Frame
import proofs.«164791_j26688926777599_2_alg».proof.Proof.Gen.ReferenceIdeal
import proofs.«164791_j26688926777599_2_alg».proof.Proof.Gen.ReferenceIdeal.Run
import proofs.«164791_j26688926777599_2_alg».proof.Proof.Gen.ReferenceIdeal.Read
import proofs.«164791_j26688926777599_2_alg».proof.Proof.Gen.Pre_finite_inputs
import proofs.«164791_j26688926777599_2_alg».proof.Proof.Result
import proofs.«164791_j26688926777599_2_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on φ and w, both programs end at the common result of those two arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.CosSum.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v4_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
